-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v12) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x1024x256 : Shape := ⟨3, ![32, 1024, 256]⟩
abbrev S32x1024x16x256 : Shape := ⟨4, ![32, 1024, 16, 256]⟩
abbrev S32x1024x17 : Shape := ⟨3, ![32, 1024, 17]⟩
abbrev S256x256 : Shape := ⟨2, ![256, 256]⟩
abbrev S_ : Shape := ⟨0, ![]⟩

class Facts : Prop where
  bcast_S_S32x1024x256 : S_.BroadcastsInDim S32x1024x256 (![] : Fin 0 → Fin S32x1024x256.rank)
  reducesTo_S32x1024x256_S_d0_1_2 : S32x1024x256.ReducesTo [0, 1, 2] S_
  h_S_ : 0 < S_.numel
  bcast_S_S32x1024x16x256 : S_.BroadcastsInDim S32x1024x16x256 (![] : Fin 0 → Fin S32x1024x16x256.rank)
  reducesTo_S32x1024x16x256_S_d0_1_2_3 : S32x1024x16x256.ReducesTo [0, 1, 2, 3] S_
  bcast_S_S32x1024x17 : S_.BroadcastsInDim S32x1024x17 (![] : Fin 0 → Fin S32x1024x17.rank)
  reducesTo_S32x1024x17_S_d0_1_2 : S32x1024x17.ReducesTo [0, 1, 2] S_
  bcast_S_S256x256 : S_.BroadcastsInDim S256x256 (![] : Fin 0 → Fin S256x256.rank)
  reducesTo_S256x256_S_d0_1 : S256x256.ReducesTo [0, 1] S_

variable [Facts]

def fn_part1 {F : FTy → Type} [FloatOps F] (main_v13 : IVec S_ 1) (main_v16 : IVec S256x256 1) : IVec S_ 1 :=
  let main_c_5 : IVec S_ 1 := constantI S_ 1 1#1
  let main_v17 : IVec S_ 1 := (fun x v => Host.reduce IntOp.andi x v reducesTo_S256x256_S_d0_1 h_S_) main_v16 main_c_5
  let main_v18 : IVec S_ 1 := andi main_v13 main_v17
  main_v18

def fn {F : FTy → Type} [FloatOps F] (main_arg0 : FVec F S32x1024x256 .f32) (main_arg1 : FVec F S32x1024x16x256 .f32) (main_arg2 : FVec F S32x1024x17 .f32) (main_arg3 : FVec F S256x256 .f32) : IVec S_ 1 :=
  let main_v0 : FVec F S32x1024x256 .f32 := Host.absf main_arg0
  let main_cst : FVec F S_ .f32 := constant S_ .f32 0x7F800000#32
  let main_v1 : FVec F S32x1024x256 .f32 := broadcastInDim S32x1024x256 ![] bcast_S_S32x1024x256 main_cst
  let main_v2 : IVec S32x1024x256 1 := cmpf .olt main_v0 main_v1
  let main_c : IVec S_ 1 := constantI S_ 1 1#1
  let main_v3 : IVec S_ 1 := (fun x v => Host.reduce IntOp.andi x v reducesTo_S32x1024x256_S_d0_1_2 h_S_) main_v2 main_c
  let main_v4 : FVec F S32x1024x16x256 .f32 := Host.absf main_arg1
  let main_cst_0 : FVec F S_ .f32 := constant S_ .f32 0x7F800000#32
  let main_v5 : FVec F S32x1024x16x256 .f32 := broadcastInDim S32x1024x16x256 ![] bcast_S_S32x1024x16x256 main_cst_0
  let main_v6 : IVec S32x1024x16x256 1 := cmpf .olt main_v4 main_v5
  let main_c_1 : IVec S_ 1 := constantI S_ 1 1#1
  let main_v7 : IVec S_ 1 := (fun x v => Host.reduce IntOp.andi x v reducesTo_S32x1024x16x256_S_d0_1_2_3 h_S_) main_v6 main_c_1
  let main_v8 : IVec S_ 1 := andi main_v3 main_v7
  let main_v9 : FVec F S32x1024x17 .f32 := Host.absf main_arg2
  let main_cst_2 : FVec F S_ .f32 := constant S_ .f32 0x7F800000#32
  let main_v10 : FVec F S32x1024x17 .f32 := broadcastInDim S32x1024x17 ![] bcast_S_S32x1024x17 main_cst_2
  let main_v11 : IVec S32x1024x17 1 := cmpf .olt main_v9 main_v10
  let main_c_3 : IVec S_ 1 := constantI S_ 1 1#1
  let main_v12 : IVec S_ 1 := (fun x v => Host.reduce IntOp.andi x v reducesTo_S32x1024x17_S_d0_1_2 h_S_) main_v11 main_c_3
  let main_v13 : IVec S_ 1 := andi main_v8 main_v12
  let main_v14 : FVec F S256x256 .f32 := Host.absf main_arg3
  let main_cst_4 : FVec F S_ .f32 := constant S_ .f32 0x7F800000#32
  let main_v15 : FVec F S256x256 .f32 := broadcastInDim S256x256 ![] bcast_S_S256x256 main_cst_4
  let main_v16 : IVec S256x256 1 := cmpf .olt main_v14 main_v15
  fn_part1 (F := F) main_v13 main_v16
-- ==== Kernel.lean ====
abbrev S32x1024x256 : Shape := ⟨3, ![32, 1024, 256]⟩
abbrev S32x1024x16x256 : Shape := ⟨4, ![32, 1024, 16, 256]⟩
abbrev S32x1024x17 : Shape := ⟨3, ![32, 1024, 17]⟩
abbrev S256x256 : Shape := ⟨2, ![256, 256]⟩
abbrev S32768x256 : Shape := ⟨2, ![32768, 256]⟩
abbrev S32768x16x256 : Shape := ⟨3, ![32768, 16, 256]⟩
abbrev S32768x17 : Shape := ⟨2, ![32768, 17]⟩
abbrev S512x16x256 : Shape := ⟨3, ![512, 16, 256]⟩
abbrev S512x256 : Shape := ⟨2, ![512, 256]⟩
abbrev S512x17 : Shape := ⟨2, ![512, 17]⟩
abbrev S512 : Shape := ⟨1, ![512]⟩
abbrev S512x1 : Shape := ⟨2, ![512, 1]⟩

abbrev nBuf : Space → Nat
  | .hbm => 9
  | .vmem => 9
  | .smem => 0
  | _ => 0

abbrev bufTy : (tb : Table) → Fin (tcTables nBuf tb) → BufTy
  | .hbm, ⟨0, _⟩ => ⟨S32x1024x256, .f32⟩
  | .hbm, ⟨1, _⟩ => ⟨S32x1024x16x256, .f32⟩
  | .hbm, ⟨2, _⟩ => ⟨S32x1024x17, .f32⟩
  | .hbm, ⟨3, _⟩ => ⟨S256x256, .f32⟩
  | .hbm, ⟨4, _⟩ => ⟨S32768x256, .f32⟩
  | .hbm, ⟨5, _⟩ => ⟨S32768x16x256, .f32⟩
  | .hbm, ⟨6, _⟩ => ⟨S32768x17, .f32⟩
  | .hbm, ⟨7, _⟩ => ⟨S32768x256, .f32⟩
  | .hbm, ⟨8, _⟩ => ⟨S32x1024x256, .f32⟩
  | .local _ .vmem, ⟨0, _⟩ => ⟨S512x16x256, .f32⟩
  | .local _ .vmem, ⟨1, _⟩ => ⟨S512x16x256, .f32⟩
  | .local _ .vmem, ⟨2, _⟩ => ⟨S512x256, .f32⟩
  | .local _ .vmem, ⟨3, _⟩ => ⟨S512x256, .f32⟩
  | .local _ .vmem, ⟨4, _⟩ => ⟨S512x17, .f32⟩
  | .local _ .vmem, ⟨5, _⟩ => ⟨S512x17, .f32⟩
  | .local _ .vmem, ⟨6, _⟩ => ⟨S256x256, .f32⟩
  | .local _ .vmem, ⟨7, _⟩ => ⟨S512x256, .f32⟩
  | .local _ .vmem, ⟨8, _⟩ => ⟨S512x256, .f32⟩
  | _, _ => ⟨S32x1024x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![64], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x16x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x17 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S256x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  shapeCasts_S32x1024x256_S32768x256 : S32x1024x256.ShapeCasts S32768x256
  shapeCasts_S32x1024x16x256_S32768x16x256 : S32x1024x16x256.ShapeCasts S32768x16x256
  shapeCasts_S32x1024x17_S32768x17 : S32x1024x17.ShapeCasts S32768x17
  inb_S512x16x256_S512x16x256_0_0_0 : ∀ a, (![0, 0, 0] : Fin 3 → Nat) a + S512x16x256.size a ≤ S512x16x256.size a
  h_S512x16x256 : 0 < S512x16x256.numel
  shapeCasts_S512x16x256_S512x16x256 : S512x16x256.ShapeCasts S512x16x256
  reduces_S512x16x256_S512x256 : S512x16x256.Reduces [1] S512x256
  inb_S512x256_S512x256_0_0 : ∀ a, (![0, 0] : Fin 2 → Nat) a + S512x256.size a ≤ S512x256.size a
  h_S512x256 : 0 < S512x256.numel
  shapeCasts_S512x256_S512x256 : S512x256.ShapeCasts S512x256
  bitsLt_bf16_f32 : FTy.bits .bf16 < FTy.bits .f32
  inb_S256x256_S256x256_0_0 : ∀ a, (![0, 0] : Fin 2 → Nat) a + S256x256.size a ≤ S256x256.size a
  h_S256x256 : 0 < S256x256.numel
  inb_S512x17_S512x17_0_0 : ∀ a, (![0, 0] : Fin 2 → Nat) a + S512x17.size a ≤ S512x17.size a
  h_S512x17 : 0 < S512x17.numel
  shapeCasts_S512x17_S512x17 : S512x17.ShapeCasts S512x17
  reduces_S512x17_S512 : S512x17.Reduces [1] S512
  shapeCasts_S512_S512x1 : S512.ShapeCasts S512x1
  broadcasts_S512x1_S512x256 : S512x1.Broadcasts S512x256
  shapeCasts_S32768x256_S32x1024x256 : S32768x256.ShapeCasts S32x1024x256
  dot_S512x256_S256x256_S512x256_1_0_0_1_n_n_wf : DotDims.WF S512x256 S256x256 S512x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x16x256.size a ≤ S32768x16x256.size a
  hwx0_0 : ∀ i : grid0.Coords, EltTy.bits .f32 = 32 ∨ (Rect.block (s := S32768x16x256) S512x16x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x256.size a ≤ S32768x256.size a
  hwx0_1 : ∀ i : grid0.Coords, EltTy.bits .f32 = 32 ∨ (Rect.block (s := S32768x256) S512x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x17.size a ≤ S32768x17.size a
  hwx0_2 : ∀ i : grid0.Coords, EltTy.bits .f32 = 32 ∨ (Rect.block (s := S32768x17) S512x17.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x256.size a ≤ S256x256.size a
  hwx0_3 : ∀ i : grid0.Coords, EltTy.bits .f32 = 32 ∨ (Rect.block (s := S256x256) S256x256.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S512x256.size a ≤ S32768x256.size a
  hwx0_4 : ∀ i : grid0.Coords, EltTy.bits .f32 = 32 ∨ (Rect.block (s := S32768x256) S512x256.size (cc0_transform_4 i) (hinb0_4 i)).WholeWords (EltTy.packing .f32)

variable [Facts₀]

def dot_S512x256_S256x256_S512x256_1_0_0_1_n_n : DotDims S512x256 S256x256 S512x256 where
  lhsContracting := [1]
  rhsContracting := [0]
  lhsNonContracting := [0]
  rhsNonContracting := [1]
  lhsBatch := []
  rhsBatch := []
  wf := dot_S512x256_S256x256_S512x256_1_0_0_1_n_n_wf

abbrev win0_0 : Pipeline.Window sig grid0 :=
  Pipeline.Window.ofSpec (Memref.whole main_v1) S512x16x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S512x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S512x17.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S256x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v3) S512x256.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S32x1024x256 : Shape := ⟨3, ![32, 1024, 256]⟩
abbrev S32x1024x16x256 : Shape := ⟨4, ![32, 1024, 16, 256]⟩
abbrev S32x1024x17 : Shape := ⟨3, ![32, 1024, 17]⟩
abbrev S256x256 : Shape := ⟨2, ![256, 256]⟩
abbrev S32x1024x1x256 : Shape := ⟨4, ![32, 1024, 1, 256]⟩
abbrev S32x1024x17x256 : Shape := ⟨4, ![32, 1024, 17, 256]⟩
abbrev S_ : Shape := ⟨0, ![]⟩
abbrev S32x1024 : Shape := ⟨2, ![32, 1024]⟩
abbrev S32x1024x1 : Shape := ⟨3, ![32, 1024, 1]⟩

abbrev nBuf : Space → Nat
  | .hbm => 23
  | .vmem => 0
  | .smem => 0
  | _ => 0

abbrev bufTy : (tb : Table) → Fin (tcTables nBuf tb) → BufTy
  | .hbm, ⟨0, _⟩ => ⟨S32x1024x256, .f32⟩
  | .hbm, ⟨1, _⟩ => ⟨S32x1024x16x256, .f32⟩
  | .hbm, ⟨2, _⟩ => ⟨S32x1024x17, .f32⟩
  | .hbm, ⟨3, _⟩ => ⟨S256x256, .f32⟩
  | .hbm, ⟨4, _⟩ => ⟨S32x1024x1x256, .f32⟩
  | .hbm, ⟨5, _⟩ => ⟨S32x1024x17x256, .f32⟩
  | .hbm, ⟨6, _⟩ => ⟨S_, .f32⟩
  | .hbm, ⟨7, _⟩ => ⟨S32x1024x256, .f32⟩
  | .hbm, ⟨8, _⟩ => ⟨S32x1024x256, .f32⟩
  | .hbm, ⟨9, _⟩ => ⟨S_, .f32⟩
  | .hbm, ⟨10, _⟩ => ⟨S32x1024, .f32⟩
  | .hbm, ⟨11, _⟩ => ⟨S32x1024x1, .f32⟩
  | .hbm, ⟨12, _⟩ => ⟨S_, .f32⟩
  | .hbm, ⟨13, _⟩ => ⟨S32x1024x1, .f32⟩
  | .hbm, ⟨14, _⟩ => ⟨S32x1024x1, .i1⟩
  | .hbm, ⟨15, _⟩ => ⟨S_, .f32⟩
  | .hbm, ⟨16, _⟩ => ⟨S32x1024x1, .f32⟩
  | .hbm, ⟨17, _⟩ => ⟨S32x1024x1, .f32⟩
  | .hbm, ⟨18, _⟩ => ⟨S32x1024x256, .f32⟩
  | .hbm, ⟨19, _⟩ => ⟨S32x1024x256, .f32⟩
  | .hbm, ⟨20, _⟩ => ⟨S_, .f32⟩
  | .hbm, ⟨21, _⟩ => ⟨S32x1024x256, .f32⟩
  | .hbm, ⟨22, _⟩ => ⟨S32x1024x256, .f32⟩
  | _, _ => ⟨S32x1024x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_call1_cst : Ref sig .tc := ⟨.hbm, 20, rfl⟩
abbrev main_call1_v0 : Ref sig .tc := ⟨.hbm, 21, rfl⟩
abbrev main_v12 : Ref sig .tc := ⟨.hbm, 22, rfl⟩

abbrev nD : Nat := 1
abbrev τ : Topo := Topo.v7x

variable {F : FTy → Type} [FloatOps F]

class Facts₀ : Prop where
  bcast_S32x1024x256_S32x1024x1x256_0_1_3 : S32x1024x256.BroadcastsInDim S32x1024x1x256 (![0, 1, 3] : Fin 3 → Fin S32x1024x1x256.rank)
  concatenates_S32x1024x1x256_S32x1024x16x256_S32x1024x17x256_d2 : Shape.Concatenates [S32x1024x1x256, S32x1024x16x256] S32x1024x17x256 2
  reducesTo_S32x1024x17x256_S32x1024x256_d2 : S32x1024x17x256.ReducesTo [2] S32x1024x256
  h_S_ : 0 < S_.numel
  reducesTo_S32x1024x17_S32x1024_d2 : S32x1024x17.ReducesTo [2] S32x1024
  bcast_S32x1024_S32x1024x1_0_1 : S32x1024.BroadcastsInDim S32x1024x1 (![0, 1] : Fin 2 → Fin S32x1024x1.rank)
  bcast_S_S32x1024x1 : S_.BroadcastsInDim S32x1024x1 (![] : Fin 0 → Fin S32x1024x1.rank)
  bcast_S32x1024x1_S32x1024x256_0_1_2 : S32x1024x1.BroadcastsInDim S32x1024x256 (![0, 1, 2] : Fin 3 → Fin S32x1024x256.rank)
  bcast_S_S32x1024x256 : S_.BroadcastsInDim S32x1024x256 (![] : Fin 0 → Fin S32x1024x256.rank)
  dot_S32x1024x256_S256x256_S32x1024x256_2_0_01_1_n_n_wf : DotDims.WF S32x1024x256 S256x256 S32x1024x256 [2] [0] [0, 1] [1] [] []

variable [Facts₀]

def dot_S32x1024x256_S256x256_S32x1024x256_2_0_01_1_n_n : DotDims S32x1024x256 S256x256 S32x1024x256 where
  lhsContracting := [2]
  rhsContracting := [0]
  lhsNonContracting := [0, 1]
  rhsNonContracting := [1]
  lhsBatch := []
  rhsBatch := []
  wf := dot_S32x1024x256_S256x256_S32x1024x256_2_0_01_1_n_n_wf

class Facts : Prop extends Facts₀ where

variable [Facts]
-- ==== Proof.Spec.lean ====
/-
  One layer of graph convolution with degree normalisation, as a function on the extended reals.

  A node has a feature row of its own (256 entries), sixteen neighbour rows, and seventeen edge weights.
  Its output row is
      relu ( ((sum of the sixteen neighbour rows + its own row) · W) / deg ),
  where `deg` is the sum of the seventeen edge weights when that sum exceeds one half, and one otherwise.
  `entry` is one coordinate of that row; `flat` is the layer over nodes numbered 0 … 32767, and `layer` the same
  over nodes numbered by a pair (b, n) with b < 32, n < 1024.  Node (b, n) is node 1024·b + n.
-/
import Idealize.ShloMosaic.PureOps.Ideal
import Idealize.ShloMosaic.PureOps.Ideal.Laws
import Idealize.ShloMosaic.Lib.ValueIdx

noncomputable section

namespace Cert.Gcn

open Idealize.ShloMosaic Idealize.ShloMosaic.ValueIdx

/-- The normaliser of a node whose edge weights sum to `s`: `s` itself when `s > 1/2`, else `1`
    (the two literals are the binary32 words of one half and of one). -/
def degree (s : EReal) : EReal :=
  Scalar.select (Ideal.cmp .ogt s (Ideal.ofBits .f32 0x3F000000#32)) s (Ideal.ofBits .f32 0x3F800000#32)

/-- One output coordinate of one node: the aggregated row (neighbours summed, own row added) against one column
    `w` of the weight matrix, divided by the node's normaliser, clamped below at zero. -/
def entry (own : Fin 256 → EReal) (nbr : Fin 16 → Fin 256 → EReal) (wts : Fin 17 → EReal) (w : Fin 256 → EReal) : EReal :=
  max (Ideal.div (∑ d : Fin 256, ((∑ k : Fin 16, nbr k d) + own d) * w d) (degree (∑ j : Fin 17, wts j)))
    (Ideal.ofBits .f32 0x00000000#32)

/-- The layer over 32768 nodes numbered by one index. -/
def flat (own : (⟨2, ![32768, 256]⟩ : Shape).Idx → EReal) (nbr : (⟨3, ![32768, 16, 256]⟩ : Shape).Idx → EReal)
    (wts : (⟨2, ![32768, 17]⟩ : Shape).Idx → EReal) (W : (⟨2, ![256, 256]⟩ : Shape).Idx → EReal) :
    (⟨2, ![32768, 256]⟩ : Shape).Idx → EReal := fun i =>
  entry (fun d => own (ix2 (⟨(i 0).val, (i 0).isLt⟩ : Fin 32768) d))
    (fun k d => nbr (ix3 (⟨(i 0).val, (i 0).isLt⟩ : Fin 32768) k d))
    (fun j => wts (ix2 (⟨(i 0).val, (i 0).isLt⟩ : Fin 32768) j))
    (fun d => W (ix2 d (⟨(i 1).val, (i 1).isLt⟩ : Fin 256)))

/-- `flat` at node `r`, output coordinate `l`. -/
theorem flat_apply (own : (⟨2, ![32768, 256]⟩ : Shape).Idx → EReal) (nbr : (⟨3, ![32768, 16, 256]⟩ : Shape).Idx → EReal)
    (wts : (⟨2, ![32768, 17]⟩ : Shape).Idx → EReal) (W : (⟨2, ![256, 256]⟩ : Shape).Idx → EReal) (r : Fin 32768) (l : Fin 256) :
    flat own nbr wts W (ix2 r l)
      = entry (fun d => own (ix2 r d)) (fun k d => nbr (ix3 r k d)) (fun j => wts (ix2 r j)) (fun d => W (ix2 d l)) := rfl

/-- The layer over nodes numbered by a pair (b, n). -/
def layer (own : (⟨3, ![32, 1024, 256]⟩ : Shape).Idx → EReal) (nbr : (⟨4, ![32, 1024, 16, 256]⟩ : Shape).Idx → EReal)
    (wts : (⟨3, ![32, 1024, 17]⟩ : Shape).Idx → EReal) (W : (⟨2, ![256, 256]⟩ : Shape).Idx → EReal) :
    (⟨3, ![32, 1024, 256]⟩ : Shape).Idx → EReal := fun i =>
  entry (fun d => own (ix3 (⟨(i 0).val, (i 0).isLt⟩ : Fin 32) (⟨(i 1).val, (i 1).isLt⟩ : Fin 1024) d))
    (fun k d => nbr (ix4 (⟨(i 0).val, (i 0).isLt⟩ : Fin 32) (⟨(i 1).val, (i 1).isLt⟩ : Fin 1024) k d))
    (fun j => wts (ix3 (⟨(i 0).val, (i 0).isLt⟩ : Fin 32) (⟨(i 1).val, (i 1).isLt⟩ : Fin 1024) j))
    (fun d => W (ix2 d (⟨(i 2).val, (i 2).isLt⟩ : Fin 256)))

/-- `layer` at node (b, n), output coordinate `l`. -/
theorem layer_apply (own : (⟨3, ![32, 1024, 256]⟩ : Shape).Idx → EReal) (nbr : (⟨4, ![32, 1024, 16, 256]⟩ : Shape).Idx → EReal)
    (wts : (⟨3, ![32, 1024, 17]⟩ : Shape).Idx → EReal) (W : (⟨2, ![256, 256]⟩ : Shape).Idx → EReal)
    (b : Fin 32) (n : Fin 1024) (l : Fin 256) :
    layer own nbr wts W (ix3 b n l)
      = entry (fun d => own (ix3 b n d)) (fun k d => nbr (ix4 b n k d)) (fun j => wts (ix3 b n j)) (fun d => W (ix2 d l)) := rfl

end Cert.Gcn

end
-- ==== Proof.LibColumn.lean ====
/-
  Column vectors read at an index.

  A sum over the last axis that keeps that axis (`keepdims`) leaves a column: an `[a]` vector viewed as `[a, 1]`,
  then laid along every column of an `[a, b]` matrix.  Both steps only rename indices: entry `(i, 0)` of the column is
  entry `i` of the vector, and entry `(p, c)` of the broadcast matrix is entry `(p, 0)` of the column, whatever `c`.
-/
import Idealize.ShloMosaic.Lib.Pipeline.Value
import Idealize.ShloMosaic.Lib.ValueIdx

namespace Cert.LibColumn

open Idealize.ShloMosaic Idealize.ShloMosaic.ValueIdx

variable {α : Type}

/-- An `[a]` array cast to the column `[a, 1]` reads, at `(i, u)`, the operand at `i`, whatever the unit coordinate
    `u`: both indices sit at row-major position `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry in row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibColumn
-- ==== Proof.Body.lean ====
/-
  What the kernel body stores, read at one index.

  The body works on a block of 512 nodes.  From the block's neighbour rows `x0` (512 × 16 × 256), own rows `x1`
  (512 × 256), edge weights `x2` (512 × 17) and the whole weight matrix `x3` (256 × 256) it stores a 512 × 256 block whose
  entry (p, q) is `Cert.Gcn.entry` of node p's rows and column q of the matrix:
    * the sum over the neighbour axis is a plain sum of sixteen terms (the accumulator is the neutral zero);
    * the change of float format before the product is the identity on the extended reals;
    * the product into a zero accumulator is the sum over d of (row p at d) · (matrix at (d, q));
    * the edge-weight sum, kept as a column, is compared with one half, replaced by one where it is not larger, and the
      column is laid along the 256 output coordinates before the division;
    * the final maximum with zero is the clamp.
-/
import proofs.«106323_j36515811951250_1_alg».proof.Proof.Gen.KernelIdeal.Skeleton
import proofs.«106323_j36515811951250_1_alg».proof.Proof.Spec
import proofs.«106323_j36515811951250_1_alg».proof.Proof.LibColumn
import Idealize.ShloMosaic.Lib.Pipeline.Value
import Idealize.ShloMosaic.Lib.ValueIdx
import Idealize.ShloMosaic.PureOps.Ideal.Laws

noncomputable section

namespace Cert.Gcn.Body

open Idealize.ShloMosaic Idealize.ShloMosaic.ValueIdx Cert.KernelIdeal Cert.KernelIdeal.Gen

/-- The sum over the neighbour axis of a 512 × 16 × 256 block, at (p, d): sixteen terms. -/
theorem nbr_sum (x : FVec Ideal S512x16x256 .f32) (hφ : FKind.Formats .f32)
    (hacc : (0x00000000#32 : BitVec 32) = 0x00000000#32) (p : Fin 512) (d : Fin 256) :
    multiReduction .add [1] S512x256 x 0x00000000#32 reduces_S512x16x256_S512x256 hφ hacc (ix2 p d)
      = ∑ k : Fin 16, x (ix3 p k d) := by
  refine (Ideal.multiReduction_add_single x 0x00000000#32 reduces_S512x16x256_S512x256 hφ hacc (ix2 p d)).trans ?_
  exact Finset.sum_congr rfl fun k _ => congrArg x (funext fun a => Fin.ext (by
    match a with | ⟨0, _⟩ => rfl | ⟨1, _⟩ => rfl | ⟨2, _⟩ => rfl))

/-- The sum of a node's seventeen edge weights, at node p. -/
theorem wts_sum (x : FVec Ideal S512x17 .f32) (hφ : FKind.Formats .f32)
    (hacc : (0x00000000#32 : BitVec 32) = 0x00000000#32) (p : Fin 512) :
    multiReduction .add [1] S512 x 0x00000000#32 reduces_S512x17_S512 hφ hacc (ix1 p)
      = ∑ j : Fin 17, x (ix2 p j) := by
  refine (Ideal.multiReduction_add_single x 0x00000000#32 reduces_S512x17_S512 hφ hacc (ix1 p)).trans ?_
  exact Finset.sum_congr rfl fun k _ => congrArg x (funext fun a => Fin.ext (by
    match a with | ⟨0, _⟩ => rfl | ⟨1, _⟩ => rfl))

/-- The 512 × 256 by 256 × 256 product into a zero accumulator, at (p, q): the sum over the contracted coordinate. -/
theorem product_apply (lhs : FVec Ideal S512x256 .bf16) (rhs : FVec Ideal S256x256 .bf16) (p : Fin 512) (q : Fin 256) :
    matmul dot_S512x256_S256x256_S512x256_1_0_0_1_n_n none lhs rhs (constant S512x256 .f32 0x00000000#32) (ix2 p q)
      = ∑ d : Fin 256, lhs (ix2 p d) * rhs (ix2 d q) := by
  simp only [matmul]
  rw [Ideal.matmul_constant_zero_apply,
    ← Equiv.sum_comp (contrEquiv1 dot_S512x256_S256x256_S512x256_1_0_0_1_n_n 256 rfl rfl).symm]
  refine Finset.sum_congr rfl fun k _ => ?_
  have hk := contrEquiv1_symm_val dot_S512x256_S256x256_S512x256_1_0_0_1_n_n 256 rfl rfl k
  have el : dot_S512x256_S256x256_S512x256_1_0_0_1_n_n.lhsIdx (ix2 p q)
      ((contrEquiv1 dot_S512x256_S256x256_S512x256_1_0_0_1_n_n 256 rfl rfl).symm k) = ix2 p k :=
    funext fun a => Fin.ext (by
      match a with
      | ⟨0, _⟩ =>
        show (dot_S512x256_S256x256_S512x256_1_0_0_1_n_n.lhsIdx (ix2 p q) _ 0).val = p.val
        unfold DotDims.lhsIdx
        rw [dif_neg (show ¬(0 : Fin S512x256.rank) ∈ dot_S512x256_S256x256_S512x256_1_0_0_1_n_n.lhsBatch by decide),
          dif_pos (show (0 : Fin S512x256.rank) ∈ dot_S512x256_S256x256_S512x256_1_0_0_1_n_n.lhsNonContracting by decide)]
        rfl
      | ⟨1, _⟩ =>
        exact (dot_S512x256_S256x256_S512x256_1_0_0_1_n_n.lhsIdx_val_of_single rfl (ix2 p q) _).trans hk)
  have er : dot_S512x256_S256x256_S512x256_1_0_0_1_n_n.rhsIdx (ix2 p q)
      ((contrEquiv1 dot_S512x256_S256x256_S512x256_1_0_0_1_n_n 256 rfl rfl).symm k) = ix2 k q :=
    funext fun a => Fin.ext (by
      match a with
      | ⟨0, _⟩ =>
        exact (dot_S512x256_S256x256_S512x256_1_0_0_1_n_n.rhsIdx_val_of_single rfl (ix2 p q) _).trans hk
      | ⟨1, _⟩ =>
        show (dot_S512x256_S256x256_S512x256_1_0_0_1_n_n.rhsIdx (ix2 p q) _ 1).val = q.val
        unfold DotDims.rhsIdx
        rw [dif_neg (show ¬(1 : Fin S256x256.rank) ∈ dot_S512x256_S256x256_S512x256_1_0_0_1_n_n.rhsBatch by decide),
          dif_pos (show (1 : Fin S256x256.rank) ∈ dot_S512x256_S256x256_S512x256_1_0_0_1_n_n.rhsNonContracting by decide)]
        rfl)
  rw [el, er]

/-- The stored block at (p, q) is `entry` of node p's rows in the block and column q of the matrix. -/
theorem payload_apply (x0 : Vec Ideal S512x16x256 .f32) (x1 : Vec Ideal S512x256 .f32) (x3 : Vec Ideal S256x256 .f32)
    (x2 : Vec Ideal S512x17 .f32) (p : Fin 512) (q : Fin 256) :
    k0_pay1 (F := Ideal) x0 x1 x3 x2 (ix2 p q)
      = Cert.Gcn.entry (fun d => x1 (ix2 p d)) (fun k d => x0 (ix3 p k d)) (fun j => x2 (ix2 p j)) (fun d => x3 (ix2 d q)) := by
  unfold k0_pay1
  dsimp only
  simp only [shapeCast_self]
  rw [maximumf_apply, divf_apply, product_apply, Cert.LibColumn.broadcastTo_a1_ab_apply, select_apply, cmpf_apply,
    Cert.LibColumn.shapeCast_a_a1_apply, wts_sum]
  simp only [truncf_apply, addf_apply, broadcast_apply]
  unfold Cert.Gcn.entry Cert.Gcn.degree
  refine congrArg₂ max (congrArg₂ Ideal.div (Finset.sum_congr rfl fun d _ => ?_) rfl) rfl
  rw [nbr_sum]

end Cert.Gcn.Body

end
-- ==== Proof.Blocks.lean ====
/-
  From the blocks to the array.

  The grid has 64 points.  Point t works on nodes 512·t … 512·t + 511: it reads those nodes' neighbour rows, own rows and
  edge weights, and the whole weight matrix, and writes back rows 512·t … 512·t + 511 of the output.  By `Body.payload_apply`
  the block written back at point t is rows 512·t … of ONE function of the arrays as the region finds them,
  `Cert.Gcn.flat`.  The 64 blocks tile the 32768 rows (the point that covers row r is r / 512), so after the region the output
  array is that function.
-/
import proofs.«106323_j36515811951250_1_alg».proof.Proof.Gen.KernelIdeal.Frame
import proofs.«106323_j36515811951250_1_alg».proof.Proof.Body
import Idealize.ShloMosaic.Lib.Pipeline.Value

noncomputable section

namespace Cert.Gcn

/-- `entry` depends on its four arguments only through their values. -/
theorem entry_congr {own own' : Fin 256 → EReal} {nbr nbr' : Fin 16 → Fin 256 → EReal} {wts wts' : Fin 17 → EReal}
    {w w' : Fin 256 → EReal} (h1 : ∀ d, own d = own' d) (h2 : ∀ k d, nbr k d = nbr' k d) (h3 : ∀ j, wts j = wts' j)
    (h4 : ∀ d, w d = w' d) : entry own nbr wts w = entry own' nbr' wts' w' := by
  obtain rfl : own = own' := funext h1
  obtain rfl : nbr = nbr' := funext fun k => funext (h2 k)
  obtain rfl : wts = wts' := funext h3
  obtain rfl : w = w' := funext h4
  rfl

end Cert.Gcn

namespace Cert.Gcn.Blocks

open Cert.KernelIdeal Cert.KernelIdeal.Gen Idealize.ShloMosaic Idealize.ShloMosaic.TcCoe Idealize.SL.Sem
open Idealize.ShloMosaic.Pipeline (Dat)
open Idealize.ShloMosaic.ValueIdx

variable (m : (ℓ : Loc nD τ sig) → Buf (Elt Ideal) ℓ) (ρ : Dev nD → PrngReg)

theorem hz2 : (![0, 0] : Fin 2 → Nat) = fun _ => 0 := funext fun a => by fin_cases a <;> rfl
theorem hz3 : (![0, 0, 0] : Fin 3 → Nat) = fun _ => 0 := funext fun a => by fin_cases a <;> rfl

/-- The output array as one function of the arrays the region finds: the flat layer of the own rows (`main_v0`), the
    neighbour rows (`main_v1`), the edge weights (`main_v2`) and the weight matrix (`main_arg3`). -/
abbrev whole (c : Dev nD) : S32768x256.Idx → EReal :=
  Cert.Gcn.flat (V m c main_v0 : S32768x256.Idx → EReal) (V m c main_v1 : S32768x16x256.Idx → EReal)
    (V m c main_v2 : S32768x17.Idx → EReal) (V m c main_arg3 : S256x256.Idx → EReal)

/-- The printed index maps over the 64 points: the three node-indexed inputs and the output are at block t on the node
    axis and block 0 elsewhere; the weight matrix is always at block (0, 0). -/
theorem idx_facts : ∀ t : Fin cfg0.N,
    win0_0.index t (0 : Fin 3) = t.val ∧ win0_0.index t (1 : Fin 3) = 0 ∧ win0_0.index t (2 : Fin 3) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0 :=
  (by decide +kernel : ∀ t : Fin grid0.N, _)

/-- Node p of point t's block is node 512·t + p. -/
def node (t : Fin cfg0.N) (p : Fin 512) : Fin 32768 :=
  ⟨512 * t.val + p.val, by have ht := t.isLt; have hN : cfg0.N = 64 := N_0; have hp := p.isLt; omega⟩

theorem node_val (t : Fin cfg0.N) (p : Fin 512) : (node t p).val = 512 * t.val + p.val := rfl

/-- The neighbour block at point t: node p's rows are node 512·t + p's. -/
theorem nbr_block (c : Dev nD) (t : Fin cfg0.N) (p : Fin 512) (k : Fin 16) (d : Fin 256) :
    (iblk m c 0 t : Vec Ideal S512x16x256 .f32) (ix3 p k d) = (V m c main_v1 : S32768x16x256.Idx → EReal) (ix3 (node t p) k d) := by
  obtain ⟨e0, e1, e2, -⟩ := idx_facts t
  unfold iblk
  rw [View.read_apply]
  show (V m c main_v1 : S32768x16x256.Idx → EReal) _ = (V m c main_v1 : S32768x16x256.Idx → EReal) _
  refine congrArg (V m c main_v1 : S32768x16x256.Idx → EReal) (funext fun a => Fin.ext ?_)
  match a with
  | ⟨0, _⟩ => show win0_0.index t (0 : Fin 3) * 512 + 1 * p.val = 512 * t.val + p.val; rw [e0]; omega
  | ⟨1, _⟩ => show win0_0.index t (1 : Fin 3) * 16 + 1 * k.val = k.val; rw [e1]; omega
  | ⟨2, _⟩ => show win0_0.index t (2 : Fin 3) * 256 + 1 * d.val = d.val; rw [e2]; omega

/-- The own-row block at point t. -/
theorem own_block (c : Dev nD) (t : Fin cfg0.N) (p : Fin 512) (d : Fin 256) :
    (iblk m c 1 t : Vec Ideal S512x256 .f32) (ix2 p d) = (V m c main_v0 : S32768x256.Idx → EReal) (ix2 (node t p) d) := by
  obtain ⟨-, -, -, e0, e1, -⟩ := idx_facts t
  unfold iblk
  rw [View.read_apply]
  show (V m c main_v0 : S32768x256.Idx → EReal) _ = (V m c main_v0 : S32768x256.Idx → EReal) _
  refine congrArg (V m c main_v0 : S32768x256.Idx → EReal) (funext fun a => Fin.ext ?_)
  match a with
  | ⟨0, _⟩ => show win0_1.index t (0 : Fin 2) * 512 + 1 * p.val = 512 * t.val + p.val; rw [e0]; omega
  | ⟨1, _⟩ => show win0_1.index t (1 : Fin 2) * 256 + 1 * d.val = d.val; rw [e1]; omega

/-- The edge-weight block at point t. -/
theorem wts_block (c : Dev nD) (t : Fin cfg0.N) (p : Fin 512) (j : Fin 17) :
    (iblk m c 2 t : Vec Ideal S512x17 .f32) (ix2 p j) = (V m c main_v2 : S32768x17.Idx → EReal) (ix2 (node t p) j) := by
  obtain ⟨-, -, -, -, -, e0, e1, -⟩ := idx_facts t
  unfold iblk
  rw [View.read_apply]
  show (V m c main_v2 : S32768x17.Idx → EReal) _ = (V m c main_v2 : S32768x17.Idx → EReal) _
  refine congrArg (V m c main_v2 : S32768x17.Idx → EReal) (funext fun a => Fin.ext ?_)
  match a with
  | ⟨0, _⟩ => show win0_2.index t (0 : Fin 2) * 512 + 1 * p.val = 512 * t.val + p.val; rw [e0]; omega
  | ⟨1, _⟩ => show win0_2.index t (1 : Fin 2) * 17 + 1 * j.val = j.val; rw [e1]; omega

/-- The weight-matrix block at every point is the whole matrix. -/
theorem mat_block (c : Dev nD) (t : Fin cfg0.N) (d : Fin 256) (q : Fin 256) :
    (iblk m c 3 t : Vec Ideal S256x256 .f32) (ix2 d q) = (V m c main_arg3 : S256x256.Idx → EReal) (ix2 d q) := by
  obtain ⟨-, -, -, -, -, -, -, e0, e1, -⟩ := idx_facts t
  unfold iblk
  rw [View.read_apply]
  show (V m c main_arg3 : S256x256.Idx → EReal) _ = (V m c main_arg3 : S256x256.Idx → EReal) _
  refine congrArg (V m c main_arg3 : S256x256.Idx → EReal) (funext fun a => Fin.ext ?_)
  match a with
  | ⟨0, _⟩ => show win0_3.index t (0 : Fin 2) * 256 + 1 * d.val = d.val; rw [e0]; omega
  | ⟨1, _⟩ => show win0_3.index t (1 : Fin 2) * 256 + 1 * q.val = q.val; rw [e1]; omega

/-- What the body stores at point t, at (p, q), is `whole` at node 512·t + p, coordinate q. -/
theorem stored_apply (c : Dev nD) (t : Fin cfg0.N) (p : Fin 512) (q : Fin 256) :
    k0_pay1 (F := Ideal) (iblk m c 0 t) (iblk m c 1 t) (iblk m c 3 t) (iblk m c 2 t) (ix2 p q)
      = whole m c (ix2 (node t p) q) := by
  refine (Body.payload_apply _ _ _ _ p q).trans ?_
  refine Eq.trans ?_ (Cert.Gcn.flat_apply _ _ _ _ (node t p) q).symm
  exact Cert.Gcn.entry_congr (fun d => own_block m c t p d) (fun k d => nbr_block m c t p k d)
    (fun j => wts_block m c t p j) (fun d => mat_block m c t d q)

/-- What point t writes back is rows 512·t … 512·t + 511 of `whole`. -/
theorem flushed_eq (c : Dev nD) (t : Fin cfg0.N) :
    (dats m 0 c).flushed 4 t = ((cfg0.win 4).blk t).view.read (Elt Ideal) (whole m c) := by
  show (cfg0.win 4).cut (grid0.coords t) ((dats m 0 c).after 4 t) = _
  rw [after0_4]
  unfold out0_4
  rw [View.canon_unit_zero hz2]
  simp only [View.ld_unit_zero (S := S512x16x256) hz3, View.ld_unit_zero (S := S512x256) hz2,
    View.ld_unit_zero (S := S256x256) hz2, View.ld_unit_zero (S := S512x17) hz2]
  obtain ⟨-, -, -, -, -, -, -, -, -, e0, e1⟩ := idx_facts t
  funext j
  obtain ⟨p, q, rfl⟩ : ∃ (p : Fin 512) (q : Fin 256), j = ix2 p q := ⟨j 0, j 1, eq_ix2 j⟩
  show k0_pay1 (F := Ideal) (iblk m c 0 t) (iblk m c 1 t) (iblk m c 3 t) (iblk m c 2 t) (ix2 p q)
    = whole m c (((cfg0.win 4).blk t).view.emb (ix2 p q))
  refine (stored_apply m c t p q).trans (congrArg (whole m c) (funext fun a => Fin.ext ?_))
  match a with
  | ⟨0, _⟩ => show 512 * t.val + p.val = win0_4.index t (0 : Fin 2) * 512 + 1 * p.val; rw [e0]; omega
  | ⟨1, _⟩ => show q.val = win0_4.index t (1 : Fin 2) * 256 + 1 * q.val; rw [e1]; omega

/-- An index of the output array is in point t's block iff each coordinate is in the block's range on its axis. -/
theorem mem_blk (t : Fin cfg0.N) (i : S32768x256.Idx) :
    i ∈ ((cfg0.win 4).blk t).view.set ↔ ∀ a : Fin 2, win0_4.index t a * S512x256.size a ≤ (i a).val
      ∧ (i a).val < win0_4.index t a * S512x256.size a + S512x256.size a := by
  show i ∈ ((View.whole main_v3).slice (win0_4.rect t)).set ↔ _
  rw [View.set_slice_whole, Rect.mem_set_unit]
  exact Iff.rfl

/-- Every row r of the output is written back by point r / 512. -/
theorem cover (i : S32768x256.Idx) :
    ∃ t : Fin cfg0.N, (cfg0.win 4).flush t = true ∧ i ∈ ((cfg0.win 4).blk t).view.set := by
  have hN : cfg0.N = 64 := N_0
  have hi0 : (i 0).val < 32768 := (i 0).isLt
  have hi1 : (i 1).val < 256 := (i 1).isLt
  obtain ⟨t, ht⟩ : ∃ t : Fin cfg0.N, t.val = (i 0).val / 512 := ⟨⟨(i 0).val / 512, by omega⟩, rfl⟩
  obtain ⟨-, -, -, -, -, -, -, -, -, e0, e1⟩ := idx_facts t
  refine ⟨t, flush0_4 t, ?_⟩
  rw [mem_blk]
  intro a
  match a with
  | ⟨0, _⟩ =>
    show win0_4.index t (0 : Fin 2) * 512 ≤ (i 0).val ∧ (i 0).val < win0_4.index t (0 : Fin 2) * 512 + 512
    rw [e0, ht]; omega
  | ⟨1, _⟩ =>
    show win0_4.index t (1 : Fin 2) * 256 ≤ (i 1).val ∧ (i 1).val < win0_4.index t (1 : Fin 2) * 256 + 256
    rw [e1]; omega

/-- The output array after the region is `whole`. -/
theorem final (c : Dev nD) : (dats m 0 c).arrAt 4 cfg0.N = whole m c :=
  (dats m 0 c).arrAt_eq_of_cover 4 (whole m c) (fun t _ => flushed_eq m c t) cover

end Cert.Gcn.Blocks

end
-- ==== Proof.Reshape.lean ====
/-
  The layer over nodes numbered by a pair (b, n) is the layer over nodes numbered 0 … 32767 read through the
  row-major renumbering: node (b, n) is node 1024·b + n.  Every array of the pair-numbered layer, viewed flat, has the
  same element at the same row-major position, so the two layers agree coordinate by coordinate.
-/
import proofs.«106323_j36515811951250_1_alg».proof.Proof.Spec
import Idealize.ShloMosaic.Lib.Pipeline.Value

noncomputable section

namespace Cert.Gcn

open Idealize.ShloMosaic Idealize.ShloMosaic.ValueIdx

/-- The own rows viewed flat: row 1024·b + n, entry d, is row (b, n), entry d. -/
theorem flat_own_apply (own : (⟨3, ![32, 1024, 256]⟩ : Shape).Idx → EReal)
    (h0 : (⟨3, ![32, 1024, 256]⟩ : Shape).ShapeCasts ⟨2, ![32768, 256]⟩)
    (b : Fin 32) (n : Fin 1024) (hr : 1024 * b.val + n.val < 32768) (d : Fin 256) :
    shapeCast ⟨2, ![32768, 256]⟩ own h0 (ix2 (⟨1024 * b.val + n.val, hr⟩ : Fin 32768) d) = own (ix3 b n d) := by
  refine shapeCast_apply own h0 _ (ix3 b n d) ?_
  rw [Shape.rowMajor_val_three, Shape.rowMajor_val_two]
  show (b.val * 1024 + n.val) * 256 + d.val = (1024 * b.val + n.val) * 256 + d.val
  omega

/-- The neighbour rows viewed flat: row 1024·b + n, neighbour k, entry d, is row (b, n), neighbour k, entry d. -/
theorem flat_nbr_apply (nbr : (⟨4, ![32, 1024, 16, 256]⟩ : Shape).Idx → EReal)
    (h1 : (⟨4, ![32, 1024, 16, 256]⟩ : Shape).ShapeCasts ⟨3, ![32768, 16, 256]⟩)
    (b : Fin 32) (n : Fin 1024) (hr : 1024 * b.val + n.val < 32768) (k : Fin 16) (d : Fin 256) :
    shapeCast ⟨3, ![32768, 16, 256]⟩ nbr h1 (ix3 (⟨1024 * b.val + n.val, hr⟩ : Fin 32768) k d) = nbr (ix4 b n k d) := by
  refine shapeCast_apply nbr h1 _ (ix4 b n k d) ?_
  rw [Shape.rowMajor_val_four, Shape.rowMajor_val_three]
  show ((b.val * 1024 + n.val) * 16 + k.val) * 256 + d.val = ((1024 * b.val + n.val) * 16 + k.val) * 256 + d.val
  omega

/-- The edge weights viewed flat: row 1024·b + n, weight j, is row (b, n), weight j. -/
theorem flat_wts_apply (wts : (⟨3, ![32, 1024, 17]⟩ : Shape).Idx → EReal)
    (h2 : (⟨3, ![32, 1024, 17]⟩ : Shape).ShapeCasts ⟨2, ![32768, 17]⟩)
    (b : Fin 32) (n : Fin 1024) (hr : 1024 * b.val + n.val < 32768) (j : Fin 17) :
    shapeCast ⟨2, ![32768, 17]⟩ wts h2 (ix2 (⟨1024 * b.val + n.val, hr⟩ : Fin 32768) j) = wts (ix3 b n j) := by
  refine shapeCast_apply wts h2 _ (ix3 b n j) ?_
  rw [Shape.rowMajor_val_three, Shape.rowMajor_val_two]
  show (b.val * 1024 + n.val) * 17 + j.val = (1024 * b.val + n.val) * 17 + j.val
  omega

/-- The flat layer of the flat views, viewed by pairs again, is the pair-numbered layer. -/
theorem layer_of_flat (own : (⟨3, ![32, 1024, 256]⟩ : Shape).Idx → EReal) (nbr : (⟨4, ![32, 1024, 16, 256]⟩ : Shape).Idx → EReal)
    (wts : (⟨3, ![32, 1024, 17]⟩ : Shape).Idx → EReal) (W : (⟨2, ![256, 256]⟩ : Shape).Idx → EReal)
    (h0 : (⟨3, ![32, 1024, 256]⟩ : Shape).ShapeCasts ⟨2, ![32768, 256]⟩) (h1 : (⟨4, ![32, 1024, 16, 256]⟩ : Shape).ShapeCasts ⟨3, ![32768, 16, 256]⟩)
    (h2 : (⟨3, ![32, 1024, 17]⟩ : Shape).ShapeCasts ⟨2, ![32768, 17]⟩) (h3 : (⟨2, ![32768, 256]⟩ : Shape).ShapeCasts ⟨3, ![32, 1024, 256]⟩) :
    shapeCast ⟨3, ![32, 1024, 256]⟩ (flat (shapeCast ⟨2, ![32768, 256]⟩ own h0) (shapeCast ⟨3, ![32768, 16, 256]⟩ nbr h1) (shapeCast ⟨2, ![32768, 17]⟩ wts h2) W) h3
      = layer own nbr wts W := by
  funext i
  obtain ⟨b, n, l, rfl⟩ : ∃ (b : Fin 32) (n : Fin 1024) (l : Fin 256), i = ix3 b n l := ⟨i 0, i 1, i 2, eq_ix3 i⟩
  have hr : 1024 * b.val + n.val < 32768 := by
    have hb := b.isLt
    have hn := n.isLt
    omega
  refine (shapeCast_apply _ h3 (ix3 b n l) (ix2 (⟨1024 * b.val + n.val, hr⟩ : Fin 32768) l) ?_).trans ?_
  · rw [Shape.rowMajor_val_three, Shape.rowMajor_val_two]
    show (1024 * b.val + n.val) * 256 + l.val = (b.val * 1024 + n.val) * 256 + l.val
    omega
  · rw [flat_apply, layer_apply]
    have e0 : (fun d : Fin 256 => shapeCast ⟨2, ![32768, 256]⟩ own h0 (ix2 (⟨1024 * b.val + n.val, hr⟩ : Fin 32768) d))
        = fun d => own (ix3 b n d) := funext fun d => flat_own_apply own h0 b n hr d
    have e1 : (fun (k : Fin 16) (d : Fin 256) => shapeCast ⟨3, ![32768, 16, 256]⟩ nbr h1 (ix3 (⟨1024 * b.val + n.val, hr⟩ : Fin 32768) k d))
        = fun k d => nbr (ix4 b n k d) := funext fun k => funext fun d => flat_nbr_apply nbr h1 b n hr k d
    have e2 : (fun j : Fin 17 => shapeCast ⟨2, ![32768, 17]⟩ wts h2 (ix2 (⟨1024 * b.val + n.val, hr⟩ : Fin 32768) j))
        = fun j => wts (ix3 b n j) := funext fun j => flat_wts_apply wts h2 b n hr j
    rw [e0, e1, e2]

end Cert.Gcn

end
-- ==== Proof.HostSide.lean ====
/-
  The program around the region.

  Before the region the three node-indexed arguments are viewed flat (nodes (b, n) renumbered 1024·b + n); the weight
  matrix is passed as it is.  After the region the flat output is viewed by pairs again.  So the program's result is the
  pair-numbered view of `Cert.Gcn.flat` of the flat views of the arguments, which is `Cert.Gcn.layer` of the arguments
  (`Cert.Gcn.layer_of_flat`).
-/
import proofs.«106323_j36515811951250_1_alg».proof.Proof.Blocks
import proofs.«106323_j36515811951250_1_alg».proof.Proof.Reshape
import Idealize.ShloMosaic.Lib.StableHlo.Run

noncomputable section

namespace Cert.Gcn.HostSide

open Cert.KernelIdeal Cert.KernelIdeal.Gen Idealize.ShloMosaic Idealize.ShloMosaic.TcCoe Idealize.SL.Sem
open Idealize.ShloMosaic.Pipeline (Dat)
open Idealize.ShloMosaic.ValueIdx Idealize.ShloMosaic.StableHlo

variable (m : (ℓ : Loc nD τ sig) → Buf (Elt Ideal) ℓ) (ρ : Dev nD → PrngReg)

/-- The own rows as the region finds them: argument 0 viewed flat. -/
theorem own_found (c : Dev nD) :
    (V m c main_v0 : S32768x256.Idx → EReal)
      = shapeCast S32768x256 (m ((c : Thread nD τ).loc main_arg0) : S32x1024x256.Idx → EReal) shapeCasts_S32x1024x256_S32768x256 := by
  show StableHlo.after hostOps0 (fun b => m (c, b)) (Proc.devRef .tc main_v0) = _
  after_results
  rfl

/-- The neighbour rows as the region finds them: argument 1 viewed flat. -/
theorem nbr_found (c : Dev nD) :
    (V m c main_v1 : S32768x16x256.Idx → EReal)
      = shapeCast S32768x16x256 (m ((c : Thread nD τ).loc main_arg1) : S32x1024x16x256.Idx → EReal) shapeCasts_S32x1024x16x256_S32768x16x256 := by
  show StableHlo.after hostOps0 (fun b => m (c, b)) (Proc.devRef .tc main_v1) = _
  after_results
  rfl

/-- The edge weights as the region finds them: argument 2 viewed flat. -/
theorem wts_found (c : Dev nD) :
    (V m c main_v2 : S32768x17.Idx → EReal)
      = shapeCast S32768x17 (m ((c : Thread nD τ).loc main_arg2) : S32x1024x17.Idx → EReal) shapeCasts_S32x1024x17_S32768x17 := by
  show StableHlo.after hostOps0 (fun b => m (c, b)) (Proc.devRef .tc main_v2) = _
  after_results
  rfl

/-- The program's result after the line that follows the region: the output array viewed by pairs. -/
theorem result_found (c : Dev nD) :
    Pipeline.afterTail₀ cfgs (dats m) 0 (V0 m) [hostOps1] c main_v4
      = shapeCast S32x1024x256 (Blocks.whole m c) shapeCasts_S32768x256_S32x1024x256 := by
  unfold Pipeline.afterTail₀
  show StableHlo.after hostOps1 _ (Proc.devRef .tc main_v4) = _
  after_results
  have e : Pipeline.withArrays (cfgs 0).spec c (V0 m c) (fun w => (dats m 0 c).arrAt w (cfgs 0).N) (Proc.devRef .tc main_v3)
      = Blocks.whole m c :=
    (Pipeline.withArrays_arr spec0 launch0.win.arr_inj c (V0 m c) (fun w => (dats m 0 c).arrAt w cfg0.N) 4).trans
      (Blocks.final m c)
  refine Eq.trans ?_ (congrArg
    (fun x : S32768x256.Idx → EReal => shapeCast S32x1024x256 x shapeCasts_S32768x256_S32x1024x256) e)
  rfl

/-- The program's result is the layer of the four arguments. -/
theorem result_layer (c : Dev nD) :
    Pipeline.afterTail₀ cfgs (dats m) 0 (V0 m) [hostOps1] c main_v4
      = Cert.Gcn.layer (m ((c : Thread nD τ).loc main_arg0) : S32x1024x256.Idx → EReal)
          (m ((c : Thread nD τ).loc main_arg1) : S32x1024x16x256.Idx → EReal)
          (m ((c : Thread nD τ).loc main_arg2) : S32x1024x17.Idx → EReal)
          (m ((c : Thread nD τ).loc main_arg3) : S256x256.Idx → EReal) := by
  rw [result_found]
  unfold Blocks.whole
  rw [own_found, nbr_found, wts_found, V_main_arg3]
  exact Cert.Gcn.layer_of_flat _ _ _ _ shapeCasts_S32x1024x256_S32768x256 shapeCasts_S32x1024x16x256_S32768x16x256
    shapeCasts_S32x1024x17_S32768x17 shapeCasts_S32768x256_S32x1024x256

/-- The kernel's program: every weakly fair execution terminates with the result at the layer of the arguments and
    the arguments unchanged. -/
theorem run : θ_run defs (onTc (τ := τ) (main (F := Ideal))) ⟨m, fun _ => 0, ρ⟩ fun r => ∀ c : Dev nD,
      r.2.mem ((c.tc : Thread nD τ).loc main_v4)
        = Cert.Gcn.layer (m ((c.tc : Thread nD τ).loc main_arg0) : S32x1024x256.Idx → EReal)
            (m ((c.tc : Thread nD τ).loc main_arg1) : S32x1024x16x256.Idx → EReal)
            (m ((c.tc : Thread nD τ).loc main_arg2) : S32x1024x17.Idx → EReal)
            (m ((c.tc : Thread nD τ).loc main_arg3) : S256x256.Idx → EReal)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c =>
    ⟨((h c).2 main_v4 (Pipeline.mem_restRefs_of main_v4 (by decide) (by decide))).trans (result_layer m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).1 3).trans (((dats m 0 c).arrAt_in 3 rfl _).trans ((A_eq m c 3).trans (V_main_arg3 m c)))⟩)
    (run_main m ρ)

end Cert.Gcn.HostSide

end
-- ==== Proof.RefValue.lean ====
/-
  The reference program's result is the specified layer, coordinate by coordinate.

  The reference joins each node's own row (first) with its sixteen neighbour rows into seventeen rows, adds them up
  starting from zero, multiplies the sum into the weight matrix, adds the node's seventeen edge weights starting from
  zero, replaces that sum by one unless it exceeds one half, divides, and clamps below at zero.  The specification adds
  the sixteen neighbour rows first and the own row last, with no leading zero: addition of extended reals is
  commutative and associative with neutral element zero, so the two sums are equal with no finiteness assumed.
-/
import proofs.«106323_j36515811951250_1_alg».proof.Proof.Spec
import proofs.«106323_j36515811951250_1_alg».proof.Proof.Gen.ReferenceIdeal.Read
import Idealize.ShloMosaic.Lib.Pipeline.Value
import Idealize.ShloMosaic.Lib.ValueIdx
import Idealize.ShloMosaic.PureOps.Ideal.Laws

noncomputable section

namespace Cert.Gcn.Ref

open Cert.ReferenceIdeal Cert.ReferenceIdeal.Gen Idealize.ShloMosaic Idealize.ShloMosaic.ValueIdx

/-! ## The joined rows -/

/-- Row 0 of the seventeen joined rows of node (b, n) is the node's own row. -/
theorem joined_zero (x0 : (⟨S32x1024x256, .f32⟩ : BufTy).Contents (Elt Ideal)) (x1 : (⟨S32x1024x16x256, .f32⟩ : BufTy).Contents (Elt Ideal))
    (b : Fin 32) (n : Fin 1024) (d : Fin 256) :
    Read.val_main_v1 (F := Ideal) x0 x1 (ix4 b n (0 : Fin 17) d) = x0 (ix3 b n d) := by
  unfold Read.val_main_v1
  refine (concatenate_pair_apply_left (t := S32x1024x17x256) (s₁ := S32x1024x1x256) (s₂ := S32x1024x16x256)
    (2 : Fin S32x1024x17x256.rank) _ _ _ _ rfl (ix4 b n (0 : Fin 1) d) ?_).trans ?_
  · intro c
    match c with
    | ⟨0, _⟩ => rfl
    | ⟨1, _⟩ => rfl
    | ⟨2, _⟩ => rfl
    | ⟨3, _⟩ => rfl
  · rw [Read.val_main_v0_apply]
    exact congrArg x0 (funext fun a => Fin.ext (by match a with | ⟨0, _⟩ => rfl | ⟨1, _⟩ => rfl | ⟨2, _⟩ => rfl))

/-- Row k + 1 of the seventeen joined rows of node (b, n) is the node's neighbour row k. -/
theorem joined_succ (x0 : (⟨S32x1024x256, .f32⟩ : BufTy).Contents (Elt Ideal)) (x1 : (⟨S32x1024x16x256, .f32⟩ : BufTy).Contents (Elt Ideal))
    (b : Fin 32) (n : Fin 1024) (k : Fin 16) (d : Fin 256) :
    Read.val_main_v1 (F := Ideal) x0 x1 (ix4 b n k.succ d) = x1 (ix4 b n k d) := by
  unfold Read.val_main_v1
  refine concatenate_pair_apply_right (t := S32x1024x17x256) (s₁ := S32x1024x1x256) (s₂ := S32x1024x16x256)
    (2 : Fin S32x1024x17x256.rank) _ _ _ _ rfl rfl (ix4 b n k d) ?_ ?_
  · intro c
    match c with
    | ⟨0, _⟩ => exact fun _ => rfl
    | ⟨1, _⟩ => exact fun _ => rfl
    | ⟨2, _⟩ => exact fun h => absurd rfl h
    | ⟨3, _⟩ => exact fun _ => rfl
  · rfl

/-- The index the row sum reads its operand at. -/
theorem idx_v2_eq (b : Fin 32) (n : Fin 1024) (d : Fin 256) (k : Fin 17) :
    Read.idx_main_v2 (ix3 b n d) k = ix4 b n k d :=
  funext fun a => Fin.ext (by match a with | ⟨0, _⟩ => rfl | ⟨1, _⟩ => rfl | ⟨2, _⟩ => rfl | ⟨3, _⟩ => rfl)

/-- The sum of the seventeen joined rows, from zero, is the sum of the sixteen neighbour rows plus the own row. -/
theorem rows_sum (x0 : (⟨S32x1024x256, .f32⟩ : BufTy).Contents (Elt Ideal)) (x1 : (⟨S32x1024x16x256, .f32⟩ : BufTy).Contents (Elt Ideal))
    (b : Fin 32) (n : Fin 1024) (d : Fin 256) :
    Read.val_main_v2 (F := Ideal) x0 x1 (ix3 b n d) = (∑ k : Fin 16, x1 (ix4 b n k d)) + x0 (ix3 b n d) := by
  rw [Read.val_main_v2_apply, Read.val_main_cst_apply, Ideal.ofBits_def, Ideal.ofBits_zero_f32, zero_add, Fin.sum_univ_succ,
    idx_v2_eq, joined_zero, add_comm]
  refine congrArg (· + x0 (ix3 b n d)) (Finset.sum_congr rfl fun k _ => ?_)
  rw [idx_v2_eq, joined_succ]

/-! ## The product with the weight matrix -/

/-- The index the product reads the summed rows at. -/
theorem lidx_v3_eq (b : Fin 32) (n : Fin 1024) (l d : Fin 256) :
    Read.lidx_main_v3 (ix3 b n l) d = ix3 b n d :=
  funext fun a => Fin.ext (by match a with | ⟨0, _⟩ => rfl | ⟨1, _⟩ => rfl | ⟨2, _⟩ => rfl)

/-- The index the product reads the weight matrix at. -/
theorem ridx_v3_eq (b : Fin 32) (n : Fin 1024) (l d : Fin 256) :
    Read.ridx_main_v3 (ix3 b n l) d = ix2 d l :=
  funext fun a => Fin.ext (by match a with | ⟨0, _⟩ => rfl | ⟨1, _⟩ => rfl)

/-- Coordinate l of the summed rows of node (b, n) against the weight matrix. -/
theorem product (x0 : (⟨S32x1024x256, .f32⟩ : BufTy).Contents (Elt Ideal)) (x1 : (⟨S32x1024x16x256, .f32⟩ : BufTy).Contents (Elt Ideal))
    (x3 : (⟨S256x256, .f32⟩ : BufTy).Contents (Elt Ideal)) (b : Fin 32) (n : Fin 1024) (l : Fin 256) :
    Read.val_main_v3 (F := Ideal) x0 x1 x3 (ix3 b n l)
      = ∑ d : Fin 256, ((∑ k : Fin 16, x1 (ix4 b n k d)) + x0 (ix3 b n d)) * x3 (ix2 d l) := by
  rw [Read.val_main_v3_apply]
  refine Finset.sum_congr rfl fun d _ => ?_
  rw [lidx_v3_eq, ridx_v3_eq, rows_sum]

/-! ## The normaliser -/

/-- The normaliser of node (b, n) is stored once per node and read at every output coordinate. -/
theorem idx_v10_eq (b : Fin 32) (n : Fin 1024) (l : Fin 256) :
    Read.idx_main_v10 (ix3 b n l) = ix3 b n (0 : Fin 1) :=
  funext fun a => Fin.ext (by match a with | ⟨0, _⟩ => rfl | ⟨1, _⟩ => rfl | ⟨2, _⟩ => rfl)

/-- The index the per-node column reads the weight sums at. -/
theorem idx_v5_eq (b : Fin 32) (n : Fin 1024) (u : Fin 1) :
    Read.idx_main_v5 (ix3 b n u) = ix2 b n :=
  funext fun a => Fin.ext (by match a with | ⟨0, _⟩ => rfl | ⟨1, _⟩ => rfl)

/-- The index the weight sum reads the edge weights at. -/
theorem idx_v4_eq (b : Fin 32) (n : Fin 1024) (j : Fin 17) :
    Read.idx_main_v4 (ix2 b n) j = ix3 b n j :=
  funext fun a => Fin.ext (by match a with | ⟨0, _⟩ => rfl | ⟨1, _⟩ => rfl | ⟨2, _⟩ => rfl)

/-- The sum of the seventeen edge weights of node (b, n), from zero. -/
theorem weights_sum (x2 : (⟨S32x1024x17, .f32⟩ : BufTy).Contents (Elt Ideal)) (b : Fin 32) (n : Fin 1024) (u : Fin 1) :
    Read.val_main_v5 (F := Ideal) x2 (ix3 b n u) = ∑ j : Fin 17, x2 (ix3 b n j) := by
  rw [Read.val_main_v5_apply, idx_v5_eq, Read.val_main_v4_apply, Read.val_main_cst_0_apply, Ideal.ofBits_def,
    Ideal.ofBits_zero_f32, zero_add]
  refine Finset.sum_congr rfl fun j _ => ?_
  rw [idx_v4_eq]

/-- The divisor at node (b, n): the weight sum when it exceeds one half, one otherwise. -/
theorem normaliser (x2 : (⟨S32x1024x17, .f32⟩ : BufTy).Contents (Elt Ideal)) (b : Fin 32) (n : Fin 1024) (l : Fin 256) :
    Read.val_main_v10 (F := Ideal) x2 (ix3 b n l) = degree (∑ j : Fin 17, x2 (ix3 b n j)) := by
  rw [Read.val_main_v10_apply, idx_v10_eq, Read.val_main_v9_apply, Read.val_main_v7_apply, weights_sum,
    Read.val_main_v6_apply, Read.val_main_cst_1_apply, Read.val_main_v8_apply, Read.val_main_cst_2_apply]
  rfl

/-! ## The reference is the layer -/

open Cert.ReferenceIdeal in
/-- The reference's result, as a function of its four arguments, is the specified layer. -/
theorem reference_eq (x0 : (⟨S32x1024x256, .f32⟩ : BufTy).Contents (Elt Ideal)) (x1 : (⟨S32x1024x16x256, .f32⟩ : BufTy).Contents (Elt Ideal))
    (x2 : (⟨S32x1024x17, .f32⟩ : BufTy).Contents (Elt Ideal)) (x3 : (⟨S256x256, .f32⟩ : BufTy).Contents (Elt Ideal)) :
    Cert.ReferenceIdeal.Read.val_main_v12 (F := Ideal) x0 x1 x2 x3 = Cert.Gcn.layer x0 x1 x2 x3 := by
  funext i
  obtain ⟨b, n, l, rfl⟩ : ∃ (b : Fin 32) (n : Fin 1024) (l : Fin 256), i = ValueIdx.ix3 b n l :=
    ⟨i 0, i 1, i 2, ValueIdx.eq_ix3 i⟩
  rw [layer_apply, Read.val_main_v12_apply, Read.val_main_v11_apply, product, normaliser, Read.val_main_call1_v0_apply,
    Read.val_main_call1_cst_apply]
  rfl

end Cert.Gcn.Ref

end
-- ==== Proof.lean ====
/-
  One graph-convolution layer with degree normalisation, computed two ways, is one function on the extended reals.

  For node (b, n), with own feature row t (256 entries), neighbour rows x_0 … x_15 and edge weights a_0 … a_16, and a
  256 × 256 weight matrix W, both programs return
        relu ( ((x_0 + … + x_15 + t) · W) / deg ),     deg = a_0 + … + a_16 if that sum exceeds 1/2, else 1.

  The kernel renumbers the 32 × 1024 nodes 0 … 32767 and walks them 512 at a time: it sums the sixteen neighbour rows,
  adds the own row, multiplies the 512 aggregated rows by W in one product, divides each row by its normaliser and
  clamps at zero; the result is renumbered by pairs again.  The reference puts the own row in front of the sixteen
  neighbour rows, sums the seventeen rows, multiplies by W, divides and clamps.

  On the extended reals a change of float format is the identity, a product into a zero accumulator is the plain sum
  over the contracted coordinate, and a sum with initial value zero is the plain sum.  The two programs then differ
  only in how the seventeen rows are grouped: (x_0 + … + x_15) + t against 0 + (t + x_0 + … + x_15).  Addition of
  extended reals is commutative and associative with neutral zero, so the two agree at every input, infinite entries
  included; the finiteness of the inputs is not used.

  The modules: Spec (the function: `entry`, `flat`, `layer`), Body (what the kernel body stores, at an index), Blocks (the
  64 written-back blocks tile the output array), HostSide (the renumberings around the region, and the kernel's run),
  Reshape (the flat layer of the flat views is the pair-numbered layer), RefValue (the reference is the pair-numbered
  layer), LibColumn (a kept-axis column read at an index).  Each program's termination, absence of faults and unchanged
  arguments come with its run.  The idealised kernel is the kernel's own text read on the extended reals (no rewrite
  was applied), so that conjunct is trivial.
-/
import proofs.«106323_j36515811951250_1_alg».proof.Defs
import proofs.«106323_j36515811951250_1_alg».proof.Proof.Gen.Kernel
import proofs.«106323_j36515811951250_1_alg».proof.Proof.Gen.Kernel.Skeleton
import proofs.«106323_j36515811951250_1_alg».proof.Proof.Gen.Kernel.Launch
import proofs.«106323_j36515811951250_1_alg».proof.Proof.Gen.Kernel.Points
import proofs.«106323_j36515811951250_1_alg».proof.Proof.Gen.Kernel.Frame
import proofs.«106323_j36515811951250_1_alg».proof.Proof.Gen.KernelIdeal
import proofs.«106323_j36515811951250_1_alg».proof.Proof.Gen.KernelIdeal.Skeleton
import proofs.«106323_j36515811951250_1_alg».proof.Proof.Gen.KernelIdeal.Launch
import proofs.«106323_j36515811951250_1_alg».proof.Proof.Gen.KernelIdeal.Points
import proofs.«106323_j36515811951250_1_alg».proof.Proof.Gen.KernelIdeal.Frame
import proofs.«106323_j36515811951250_1_alg».proof.Proof.Gen.ReferenceIdeal
import proofs.«106323_j36515811951250_1_alg».proof.Proof.Gen.Pre_finite_inputs
import proofs.«106323_j36515811951250_1_alg».proof.Proof.Gen.ReferenceIdeal.Run
import proofs.«106323_j36515811951250_1_alg».proof.Proof.Gen.ReferenceIdeal.Read
import proofs.«106323_j36515811951250_1_alg».proof.Proof.HostSide
import proofs.«106323_j36515811951250_1_alg».proof.Proof.RefValue
import Idealize.ShloMosaic.Adequacy
import Idealize.ShloMosaic.Init

noncomputable section

namespace Cert.Proof

open Idealize.ShloMosaic Idealize.SL.Sem

/-- The kernel as printed runs to the end, faults nowhere, and leaves its arguments as they were. -/
theorem frame_kernel : Cert.frame_Kernel := fun m ρ _ => Cert.Kernel.Gen.frame m ρ

/-- The same of the kernel read on the extended reals. -/
theorem frame_kernel_ideal : Cert.frame_KernelIdeal := fun m ρ _ => Cert.KernelIdeal.Gen.frame m ρ

/-- The reference runs to the end and leaves its arguments as they were: its run, the result's value dropped. -/
theorem frame_reference_ideal : Cert.frame_ReferenceIdeal := fun m ρ _ =>
  (θ_run Cert.ReferenceIdeal.defs _ _).mono (fun _ h c => (h c).2) (Cert.ReferenceIdeal.Value.run (F := Ideal) m ρ)

/-- No operation of the kernel was rewritten for the extended reals: nothing to preserve. -/
theorem preserves : Cert.preserves_Kernel_KernelIdeal := trivial

/-- From memories that agree on the four arguments both programs end with the result at `Cert.Gcn.layer` of the
    arguments: the kernel by `HostSide.run`, the reference by its run read as `Ref.reference_eq`. -/
theorem algebraic : Cert.algebraic_KernelIdeal_ReferenceIdeal := by
  intro m ρ m' ρ' _ hagree
  refine ⟨_, Cert.Gcn.HostSide.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v12_eq, Cert.Gcn.Ref.reference_eq, (hagree c).1, (hagree c).2.1,
    (hagree c).2.2.1, (hagree c).2.2.2]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference_ideal, preserves, algebraic⟩

end Cert.Proof

end
